-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 59
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RunK.lean ====
/-
  The kernel program's run with its result named.

  Every weakly fair execution of the program terminates without a fault; its final memory holds, at each buffer the host
  and the calls leave unscoped, the contents the last boundary of the run names. Read at the arguments that is the launch
  memory; read at the result buffer it is what the second call's write-backs leave in its output array. The run is the
  launch over the program's four segments — a host stretch, the first call, a host stretch, the second call —, and the
  final state is read against the last boundary's contents buffer by buffer.
-/
import proofs.«175392_j62783831933158_1_alg».proof.Proof.Gen.KernelIdeal.Frame

set_option maxRecDepth 16384

noncomputable section

namespace Cert.KernelIdeal.RunK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, and the arguments as launched. -/
theorem run_result : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunK

end
-- ==== Proof.Host.lean ====
/-
  What the two calls find on entry, as functions of the arguments.

  Before the first call the host reads the edge list's two rows (sources and destinations), counts the edges into each
  node, clamps that count at one from below and takes its reciprocal; it gathers the source rows of the features, sums them
  into their destination rows, and multiplies each summed row by its node's reciprocal: the first call's neighbour means.
  Between the calls it does the same gathering, summing and scaling on the first call's output array, reusing the
  reciprocals. The bias of either call is the bias argument seen as one row. The arguments themselves are never written.
-/
import proofs.«175392_j62783831933158_1_alg».proof.Proof.Gen.KernelIdeal.Frame
import Idealize.ShloMosaic.Lib.StableHlo.Run
import Idealize.ShloMosaic.PureOps.Ideal

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]

/-! ## The host's stages, named -/

/-- The destinations, as the column of scatter indices. -/
def dstCol (e : (⟨S2x800000, .i32⟩ : BufTy).Contents (Elt F)) : (⟨S800000x1, .i32⟩ : BufTy).Contents (Elt F) :=
  broadcastInDim S800000x1 ![0] bcast_S800000_S800000x1_0
    (shapeCast _ (extractStridedSlice S1x800000 ![1, 0] e slices_S2x800000_S1x800000_1_0) shapeCasts_S1x800000_S800000)

/-- The sources, as read from the edge list. -/
def srcRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The sources with a negative one wrapped by the node count, as the column of gather indices. -/
def srcCol (e : (⟨S2x800000, .i32⟩ : BufTy).Contents (Elt F)) : (⟨S800000x1, .i32⟩ : BufTy).Contents (Elt F) :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32))) (srcRow e))

/-- The neighbour sum of a feature array: its source rows gathered and summed into their destination rows. -/
def agg (e : (⟨S2x800000, .i32⟩ : BufTy).Contents (Elt F)) (h : (⟨S50000x128, .f32⟩ : BufTy).Contents (Elt F)) :
    (⟨S50000x128, .f32⟩ : BufTy).Contents (Elt F) :=
  Host.scatterAdd (F := F) scatter_S50000x128_S800000x1_S800000x128_1_0_0_1
    (broadcastInDim S50000x128 ![] bcast_S_S50000x128 (constant (F := F) S_ .f32 0x00000000#32)) (dstCol e)
    (Host.gather gather_S50000x128_S800000x1_S800000x128_1_0_n_n_0_1_1128 h (srcCol e))

/-- Each node's number of incoming edges, clamped at one from below. -/
def deg (e : (⟨S2x800000, .i32⟩ : BufTy).Contents (Elt F)) : (⟨S50000, .f32⟩ : BufTy).Contents (Elt F) :=
  maximumf (F := F)
    (Host.scatterAdd (F := F) scatter_S50000_S800000x1_S800000_n_0_0_1
      (broadcastInDim S50000 ![] bcast_S_S50000 (constant (F := F) S_ .f32 0x00000000#32)) (dstCol e)
      (broadcastInDim S800000 ![] bcast_S_S800000 (constant (F := F) S_ .f32 0x3F800000#32)))
    (broadcastInDim S50000 ![] bcast_S_S50000 (constant (F := F) S_ .f32 0x3F800000#32))

/-- The reciprocals of the clamped degrees, as a column. -/
def recipCol (e : (⟨S2x800000, .i32⟩ : BufTy).Contents (Elt F)) : (⟨S50000x1, .f32⟩ : BufTy).Contents (Elt F) :=
  broadcastInDim S50000x1 ![0] bcast_S50000_S50000x1_0
    (Host.divf (F := F) (broadcastInDim S50000 ![] bcast_S_S50000 (constant (F := F) S_ .f32 0x3F800000#32)) (deg e))

/-- The neighbour means as the host computes them: the neighbour sum times the node's reciprocal, along each row. -/
def meanK (e : (⟨S2x800000, .i32⟩ : BufTy).Contents (Elt F)) (h : (⟨S50000x128, .f32⟩ : BufTy).Contents (Elt F)) :
    (⟨S50000x128, .f32⟩ : BufTy).Contents (Elt F) :=
  mulf (F := F) (agg e h) (broadcastInDim S50000x128 ![0, 1] bcast_S50000x1_S50000x128_0_1 (recipCol e))

variable (m : (ℓ : Loc nD τ sig) → Buf (Elt F) ℓ) (ρ : Dev nD → PrngReg)

/-! ## The first call's entry contents -/

theorem V1_mean (c : Dev nD) :
    V1 m ρ c main_v24 = meanK (m ((c : Thread nD τ).loc main_arg1)) (m ((c : Thread nD τ).loc main_arg0)) := by
  show StableHlo.after hostOps0 (W0 m ρ c) (Proc.devRef .tc main_v24) = _
  dsimp only [hostOps0]
  after_results_simp
  rfl

theorem V1_bias (c : Dev nD) :
    V1 m ρ c main_v25 = shapeCast _ (m ((c : Thread nD τ).loc main_arg3)) shapeCasts_S128_S1x128 := by
  show StableHlo.after hostOps0 (W0 m ρ c) (Proc.devRef .tc main_v25) = _
  dsimp only [hostOps0]
  after_results_simp
  rfl

theorem V1_x (c : Dev nD) : V1 m ρ c main_arg0 = m ((c : Thread nD τ).loc main_arg0) := by
  show StableHlo.after hostOps0 (W0 m ρ c) (Proc.devRef .tc main_arg0) = _
  dsimp only [hostOps0]
  after_results_simp

theorem V1_Wl (c : Dev nD) : V1 m ρ c main_arg2 = m ((c : Thread nD τ).loc main_arg2) := by
  show StableHlo.after hostOps0 (W0 m ρ c) (Proc.devRef .tc main_arg2) = _
  dsimp only [hostOps0]
  after_results_simp

theorem V1_Wr (c : Dev nD) : V1 m ρ c main_arg4 = m ((c : Thread nD τ).loc main_arg4) := by
  show StableHlo.after hostOps0 (W0 m ρ c) (Proc.devRef .tc main_arg4) = _
  dsimp only [hostOps0]
  after_results_simp

/-! ## What the second call's host stretch reuses from the first -/

theorem W1_dst (c : Dev nD) :
    W1 m ρ c (Proc.devRef .tc main_v3)
      = shapeCast _ (extractStridedSlice S1x800000 ![1, 0] (m ((c : Thread nD τ).loc main_arg1)) slices_S2x800000_S1x800000_1_0) shapeCasts_S1x800000_S800000 := by
  show StableHlo.after hostOps0 (W0 m ρ c) (Proc.devRef .tc main_v3) = _
  dsimp only [hostOps0]
  after_results_simp
  rfl

theorem W1_src (c : Dev nD) : W1 m ρ c (Proc.devRef .tc main_v1) = srcRow (m ((c : Thread nD τ).loc main_arg1)) := by
  show StableHlo.after hostOps0 (W0 m ρ c) (Proc.devRef .tc main_v1) = _
  dsimp only [hostOps0]
  after_results_simp
  rfl

theorem W1_recip (c : Dev nD) : W1 m ρ c (Proc.devRef .tc main_v12) = recipCol (m ((c : Thread nD τ).loc main_arg1)) := by
  show StableHlo.after hostOps0 (W0 m ρ c) (Proc.devRef .tc main_v12) = _
  dsimp only [hostOps0]
  after_results_simp
  rfl

theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results_simp

theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results_simp

theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results_simp

/-! ## The second call's entry contents -/

/-- The second call's neighbour means: the same gathering, summing and scaling, of the first call's output array. -/
theorem V3_mean (c : Dev nD) :
    V3 m ρ c main_v38 = meanK (m ((c : Thread nD τ).loc main_arg1)) (W2 m ρ c (Proc.devRef .tc main_v26)) := by
  show StableHlo.after hostOps1 (W2 m ρ c) (Proc.devRef .tc main_v38) = _
  dsimp only [hostOps1]
  after_results_simp
  rw [W2_of_ne m ρ c main_v3 (by decide), W2_of_ne m ρ c main_v1 (by decide), W2_of_ne m ρ c main_v12 (by decide),
    W1_dst, W1_src, W1_recip]
  rfl

theorem V3_h (c : Dev nD) : V3 m ρ c main_v26 = W2 m ρ c (Proc.devRef .tc main_v26) := by
  show StableHlo.after hostOps1 (W2 m ρ c) (Proc.devRef .tc main_v26) = _
  dsimp only [hostOps1]
  after_results_simp

theorem V3_bias (c : Dev nD) :
    V3 m ρ c main_v39 = shapeCast _ (m ((c : Thread nD τ).loc main_arg6)) shapeCasts_S128_S1x128 := by
  show StableHlo.after hostOps1 (W2 m ρ c) (Proc.devRef .tc main_v39) = _
  dsimp only [hostOps1]
  after_results_simp
  rw [W2_of_ne m ρ c main_arg6 (by decide), W1_arg6]
  rfl

theorem V3_Wl (c : Dev nD) : V3 m ρ c main_arg5 = m ((c : Thread nD τ).loc main_arg5) := by
  show StableHlo.after hostOps1 (W2 m ρ c) (Proc.devRef .tc main_arg5) = _
  dsimp only [hostOps1]
  after_results_simp
  rw [W2_of_ne m ρ c main_arg5 (by decide), W1_arg5]

theorem V3_Wr (c : Dev nD) : V3 m ρ c main_arg7 = m ((c : Thread nD τ).loc main_arg7) := by
  show StableHlo.after hostOps1 (W2 m ρ c) (Proc.devRef .tc main_arg7) = _
  dsimp only [hostOps1]
  after_results_simp
  rw [W2_of_ne m ρ c main_arg7 (by decide), W1_arg7]

end Cert.KernelIdeal.HostSide

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.Body.lean ====
/-
  What one grid point's body computes, entry by entry, over the extended reals.

  The body of either call takes a tile of 5000 rows of the neighbour means and the same 5000 rows of the node features,
  two 128-by-128 weight matrices and one bias row. It narrows the four matrices to the short float format (the identity
  on extended reals), multiplies means by the left weights into a zero accumulator, adds the bias row to every row,
  adds the product of features and right weights, and — in the first call only — takes the maximum with zero. At row
  `p`, column `j` of the tile that is

      Σ_k mean (p, k) · Wl (k, j)  +  b (0, j)  +  Σ_k x (p, k) · Wr (k, j)          (then `max · 0` in the first call).

  Each matrix product is read through the general lemma for plain dimension numbers; its four hypotheses say where the
  tile's dimension numbers send an output index and a contraction index.
-/
import proofs.«175392_j62783831933158_1_alg».proof.Proof.Gen.KernelIdeal.Skeleton
import proofs.«175392_j62783831933158_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## Where the tile product's dimension numbers send an index -/

theorem dot_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A tile's product into the zero accumulator, at row `p` and column `j`: the sum over the 128 shared coordinates. -/
theorem tile_dot {φ₁ φ₂ : FTy} (lhs : FVec Ideal S5000x128 φ₁) (rhs : FVec Ideal S128x128 φ₂) (p : Fin 5000) (j : Fin 128) :
    matmul dot_S5000x128_S128x128_S5000x128_1_0_0_1_n_n none lhs rhs (constant S5000x128 .f32 0x00000000#32) (ix2 p j)
      = ∑ k : Fin 128, lhs (ix2 p k) * rhs (ix2 k j) :=
  Cert.LibPlainMatmul.matmul_zero_at dot_S5000x128_S128x128_S5000x128_1_0_0_1_n_n none rfl rfl dot_l0 dot_l1 dot_r0 dot_r1 lhs rhs p j

/-! ## The two bodies at an entry -/

/-- The linear part both bodies share, at row `p`, column `j` of the tile. -/
def tileLin (mean x : Vec Ideal S5000x128 .f32) (Wl Wr : Vec Ideal S128x128 .f32) (b : Vec Ideal S1x128 .f32)
    (p : Fin 5000) (j : Fin 128) : EReal :=
  (∑ k : Fin 128, mean (ix2 p k) * Wl (ix2 k j)) + b (ix2 (0 : Fin 1) j) + ∑ k : Fin 128, x (ix2 p k) * Wr (ix2 k j)

/-- The first call's body: the linear part, then the maximum with zero. -/
theorem pay0_at (mean x : Vec Ideal S5000x128 .f32) (Wl Wr : Vec Ideal S128x128 .f32) (b : Vec Ideal S1x128 .f32)
    (p : Fin 5000) (j : Fin 128) :
    k0_pay1 (F := Ideal) mean x Wl Wr b (ix2 p j) = max (tileLin mean x Wl Wr b p j) 0 := by
  unfold k0_pay1 tileLin
  rw [maximumf_apply, addf_apply, addf_apply, tile_dot, tile_dot, broadcast_apply, shapeCast_self, shapeCast_self,
    broadcastTo_1b_ab_apply]
  simp only [truncf_apply]
  rw [Ideal.ofBits_def, Ideal.ofBits_zero_f32]

/-- The second call's body: the linear part alone. -/
theorem pay1_at (mean x : Vec Ideal S5000x128 .f32) (Wl Wr : Vec Ideal S128x128 .f32) (b : Vec Ideal S1x128 .f32)
    (p : Fin 5000) (j : Fin 128) :
    k1_pay1 (F := Ideal) mean x Wl Wr b (ix2 p j) = tileLin mean x Wl Wr b p j := by
  unfold k1_pay1 tileLin
  rw [addf_apply, addf_apply, tile_dot, tile_dot, shapeCast_self, shapeCast_self, shapeCast_self,
    broadcastTo_1b_ab_apply]
  simp only [truncf_apply]

end Cert.KernelIdeal.Body

end
-- ==== Proof.Spec.lean ====
/-
  One graph-convolution layer with mean aggregation, entry by entry, over the extended reals.

  For node features `x` (one row of 128 numbers per node, 50000 nodes), a row-wise neighbour sum `s`, and a degree
  vector `d` already clamped from below by one, the layer is

      out (p, j) = Σ_k (s (p, k) / d p) · Wl (k, j)  +  b j  +  Σ_k x (p, k) · Wr (k, j),

  optionally followed by `max · 0`. Two such layers are composed, the second on the first's output.

  The one algebraic fact the comparison needs: multiplying by the reciprocal `1 / d` of a clamped degree is dividing by
  it, for EVERY extended real numerator. The quotient of the extended reals is `x · y⁻¹` off zero, and `d = max c 1 ≥ 1`
  is never zero, so `x · (1 · d⁻¹) = x · d⁻¹`; no finiteness of `x` or of `c` is used.
-/
import Idealize.ShloMosaic.PureOps.Ideal.Laws
import Idealize.ShloMosaic.Lib.ValueIdx

noncomputable section

open scoped BigOperators

namespace Cert.Sage

open Idealize.ShloMosaic Idealize.ShloMosaic.ValueIdx

/-- Node features: 50000 rows of 128. -/
abbrev Nodes : Shape := ⟨2, ![50000, 128]⟩
/-- A weight matrix: 128 by 128. -/
abbrev Wt : Shape := ⟨2, ![128, 128]⟩
/-- A bias row. -/
abbrev Bias : Shape := ⟨1, ![128]⟩
/-- One number per node. -/
abbrev Deg : Shape := ⟨1, ![50000]⟩

/-- The layer's linear part at row `p`, column `j`: `(mean · Wl) (p, j) + b j + (x · Wr) (p, j)`, the sums in this order. -/
def linAt (mean x : Nodes.Idx → EReal) (Wl : Wt.Idx → EReal) (b : Bias.Idx → EReal) (Wr : Wt.Idx → EReal)
    (p : Fin 50000) (j : Fin 128) : EReal :=
  (∑ k : Fin 128, mean (ix2 p k) * Wl (ix2 k j)) + b (ix1 j) + ∑ k : Fin 128, x (ix2 p k) * Wr (ix2 k j)

/-- The linear part as an array. -/
def lin (mean x : Nodes.Idx → EReal) (Wl : Wt.Idx → EReal) (b : Bias.Idx → EReal) (Wr : Wt.Idx → EReal) :
    Nodes.Idx → EReal :=
  fun i => linAt mean x Wl b Wr (i 0) (i 1)

/-- The neighbour mean: the row-wise sum over the row's clamped degree. -/
def meanOf (s : Nodes.Idx → EReal) (d : Deg.Idx → EReal) : Nodes.Idx → EReal :=
  fun i => Ideal.div (s i) (d (ix1 (i 0)))

/-- The positive part, entry by entry. -/
def relu (h : Nodes.Idx → EReal) : Nodes.Idx → EReal := fun i => max (h i) 0

/-- One layer: the linear part of the neighbour mean of `agg x` and of `x` itself. `agg` is the neighbour sum as a
    function of the features (whatever the graph is); `d` the clamped degrees. -/
def layer (agg : (Nodes.Idx → EReal) → Nodes.Idx → EReal) (d : Deg.Idx → EReal) (x : Nodes.Idx → EReal)
    (Wl : Wt.Idx → EReal) (b : Bias.Idx → EReal) (Wr : Wt.Idx → EReal) : Nodes.Idx → EReal :=
  lin (meanOf (agg x) d) x Wl b Wr

/-- The two-layer network: a layer, its positive part, a second layer on that. -/
def net (agg : (Nodes.Idx → EReal) → Nodes.Idx → EReal) (d : Deg.Idx → EReal) (x : Nodes.Idx → EReal)
    (W1l : Wt.Idx → EReal) (b1 : Bias.Idx → EReal) (W1r : Wt.Idx → EReal)
    (W2l : Wt.Idx → EReal) (b2 : Bias.Idx → EReal) (W2r : Wt.Idx → EReal) : Nodes.Idx → EReal :=
  layer agg d (relu (layer agg d x W1l b1 W1r)) W2l b2 W2r

/-- Multiplying by the reciprocal of a degree clamped at one is dividing by it, on every extended real: the clamped degree
    is at least one, so it is not zero, and both sides are `x · (max c 1)⁻¹`. -/
theorem mul_recip (x c : EReal) : x * Ideal.div 1 (max c 1) = Ideal.div x (max c 1) := by
  have hy : max c 1 ≠ 0 := ne_of_gt (lt_of_lt_of_le zero_lt_one (le_max_right c 1))
  rw [Ideal.div, Ideal.div, if_neg hy, if_neg hy, one_mul]

/-- The single-precision pattern of one denotes the number one. -/
theorem one_bits : Ideal.ofBits .f32 0x3F800000#32 = 1 := by
  simp [Ideal.ofBits, Ideal.ieee, -EReal.coe_mul]; norm_num

end Cert.Sage

end
-- ==== Proof.Tiles0.lean ====
/-
  Call 0's output array after all ten grid points, as one function of the arrays the call finds on entry.

  The grid has ten points; point `t` reads rows `5000·t … 5000·t + 4999` of the neighbour means and of the node features,
  the whole of both weight matrices and the bias row, and writes the same rows of the output. So what point `t` writes
  back is rows `5000·t …` of ONE array: the positive part of the layer's linear part of the entry arrays. The ten row
  blocks tile the 50000 rows (row `r` is in block `r / 5000`), so the output array ends holding that array whole.
-/
import proofs.«175392_j62783831933158_1_alg».proof.Proof.Gen.KernelIdeal.Frame
import proofs.«175392_j62783831933158_1_alg».proof.Proof.Body
import proofs.«175392_j62783831933158_1_alg».proof.Proof.Spec
import Idealize.ShloMosaic.Lib.Pipeline.Value

set_option maxRecDepth 16384

noncomputable section

open scoped BigOperators

namespace Cert.KernelIdeal.Tiles0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The bias as the call reads it, one row of 128, seen as a vector. -/
def rowOf (b : S1x128.Idx → EReal) : Cert.Sage.Bias.Idx → EReal := fun i => b (ix2 (0 : Fin 1) (i 0))

/-- The whole output array: the positive part of the layer's linear part of the arrays found on entry. -/
def whole (c : Dev nD) : Buf (Elt Ideal) ((c : Thread nD τ).loc main_v26) :=
  Cert.Sage.relu (Cert.Sage.lin (V c main_v24) (V c main_arg0) (V c main_arg2) (rowOf (V c main_v25)) (V c main_arg4))

/-- The printed index maps over the grid: the three row-tiled windows are at block row `t`, column block 0; the weights and
    the bias are always at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One point, over plain arrays: if a tile's two row blocks are rows `5000·n …` of two arrays, the body's value at an entry of
    the tile is the layer's value at the matching entry of the arrays. -/
theorem point (Am Ax : Cert.Sage.Nodes.Idx → EReal) (Wl Wr : Vec Ideal S128x128 .f32) (b : Vec Ideal S1x128 .f32)
    (xm xx : Vec Ideal S5000x128 .f32) (n : Nat)
    (hm : ∀ (p : Fin 5000) (k : Fin 128) (r : Fin 50000), r.val = n * 5000 + p.val → xm (ix2 p k) = Am (ix2 r k))
    (hx : ∀ (p : Fin 5000) (k : Fin 128) (r : Fin 50000), r.val = n * 5000 + p.val → xx (ix2 p k) = Ax (ix2 r k))
    (y : S5000x128.Idx) (i : Cert.Sage.Nodes.Idx) (hi0 : (i 0).val = n * 5000 + (y 0).val) (hi1 : (i 1).val = (y 1).val) :
    k0_pay1 (F := Ideal) xm xx Wl Wr b y = (Cert.Sage.relu (Cert.Sage.lin Am Ax Wl (rowOf b) Wr)) i := by
  obtain ⟨p, j, rfl⟩ : ∃ (p : Fin 5000) (j : Fin 128), y = ix2 p j := ⟨y 0, y 1, eq_ix2 y⟩
  obtain ⟨r, j', rfl⟩ : ∃ (r : Fin 50000) (j' : Fin 128), i = ix2 r j' := ⟨i 0, i 1, eq_ix2 i⟩
  have hj : j' = j := Fin.ext hi1
  subst hj
  rw [Cert.KernelIdeal.Body.pay0_at]
  unfold Cert.KernelIdeal.Body.tileLin Cert.Sage.relu Cert.Sage.lin Cert.Sage.linAt rowOf
  have e1 : ∀ k : Fin 128, xm (ix2 p k) = Am (ix2 r k) := fun k => hm p k r hi0
  have e2 : ∀ k : Fin 128, xx (ix2 p k) = Ax (ix2 r k) := fun k => hx p k r hi0
  simp only [e1, e2]

/-- A row-tiled input window's block at point `t`, at row `p`, is the entry array at row `5000·t + p`. -/
theorem iblk_rows (c : Dev nD) (t : Fin cfg0.N) :
    (∀ (p : Fin 5000) (k : Fin 128) (r : Fin 50000), r.val = t.val * 5000 + p.val →
        (iblk0 V c 0 t : Vec Ideal S5000x128 .f32) (ix2 p k) = (V c main_v24 : Cert.Sage.Nodes.Idx → EReal) (ix2 r k))
    ∧ (∀ (p : Fin 5000) (k : Fin 128) (r : Fin 50000), r.val = t.val * 5000 + p.val →
        (iblk0 V c 1 t : Vec Ideal S5000x128 .f32) (ix2 p k) = (V c main_arg0 : Cert.Sage.Nodes.Idx → EReal) (ix2 r k)) := by
  obtain ⟨e00, e01, e10, e11, -⟩ := idx_facts t
  constructor
  · intro p k r hr
    show V c main_v24 (((cfg0.win 0).blk t).view.emb (ix2 p k)) = V c main_v24 (ix2 r k)
    refine congrArg (V c main_v24) (funext fun a => Fin.ext ?_)
    match a with
    | ⟨0, _⟩ => show win0_0.index t (0 : Fin 2) * 5000 + 1 * p.val = r.val; rw [e00, hr]; omega
    | ⟨1, _⟩ => show win0_0.index t (1 : Fin 2) * 128 + 1 * k.val = k.val; rw [e01]; omega
  · intro p k r hr
    show V c main_arg0 (((cfg0.win 1).blk t).view.emb (ix2 p k)) = V c main_arg0 (ix2 r k)
    refine congrArg (V c main_arg0) (funext fun a => Fin.ext ?_)
    match a with
    | ⟨0, _⟩ => show win0_1.index t (0 : Fin 2) * 5000 + 1 * p.val = r.val; rw [e10, hr]; omega
    | ⟨1, _⟩ => show win0_1.index t (1 : Fin 2) * 128 + 1 * k.val = k.val; rw [e11]; omega

/-- The weights' and the bias's blocks are the entry arrays themselves: their one block is the whole array. -/
theorem iblk_whole (c : Dev nD) (t : Fin cfg0.N) :
    (iblk0 V c 2 t : Vec Ideal S128x128 .f32) = V c main_arg2
    ∧ (iblk0 V c 3 t : Vec Ideal S1x128 .f32) = V c main_v25
    ∧ (iblk0 V c 4 t : Vec Ideal S128x128 .f32) = V c main_arg4 := by
  obtain ⟨-, -, -, -, e20, e21, e30, e31, e40, e41, -⟩ := idx_facts t
  refine ⟨funext fun y => ?_, funext fun y => ?_, funext fun y => ?_⟩
  · show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; rw [e20]; omega
    | ⟨1, _⟩ => show win0_2.index t (1 : Fin 2) * 128 + 1 * (y 1).val = (y 1).val; rw [e21]; omega
  · show V c main_v25 (((cfg0.win 3).blk t).view.emb y) = V c main_v25 y
    refine congrArg (V c main_v25) (funext fun a => Fin.ext ?_)
    match a with
    | ⟨0, _⟩ => show win0_3.index t (0 : Fin 2) * 1 + 1 * (y 0).val = (y 0).val; rw [e30]; omega
    | ⟨1, _⟩ => show win0_3.index t (1 : Fin 2) * 128 + 1 * (y 1).val = (y 1).val; rw [e31]; omega
  · show V c main_arg4 (((cfg0.win 4).blk t).view.emb y) = V c main_arg4 y
    refine congrArg (V c main_arg4) (funext fun a => Fin.ext ?_)
    match a with
    | ⟨0, _⟩ => show win0_4.index t (0 : Fin 2) * 128 + 1 * (y 0).val = (y 0).val; rw [e40]; omega
    | ⟨1, _⟩ => show win0_4.index t (1 : Fin 2) * 128 + 1 * (y 1).val = (y 1).val; rw [e41]; omega

/-- What point `t` writes back is block `t` of the whole output array. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨w2, w3, w4⟩ := iblk_whole V c t
  obtain ⟨hm, hx⟩ := iblk_rows V c t
  obtain ⟨-, -, -, -, -, -, -, -, -, -, e50, e51⟩ := idx_facts t
  rw [w2, w3, w4]
  funext y
  show k0_pay1 (F := Ideal) (iblk0 V c 0 t) (iblk0 V c 1 t) (V c main_arg2) (V c main_arg4) (V c main_v25) y
    = whole V c (((cfg0.win 5).blk t).view.emb y)
  refine point (V c main_v24) (V c main_arg0) (V c main_arg2) (V c main_arg4) (V c main_v25) (iblk0 V c 0 t) (iblk0 V c 1 t) t.val hm hx y _ ?_ ?_
  · show win0_5.index t (0 : Fin 2) * 5000 + 1 * (y 0).val = t.val * 5000 + (y 0).val; rw [e50]; omega
  · show win0_5.index t (1 : Fin 2) * 128 + 1 * (y 1).val = (y 1).val; rw [e51]; omega

/-- An index of the output array is in point `t`'s block iff each coordinate is in the block's range. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every entry of the output array is in some point's block: row `r` is in block `r / 5000`. -/
theorem cover (i : S50000x128.Idx) :
    ∃ t : Fin cfg0.N, (cfg0.win 5).flush t = true ∧ i ∈ ((cfg0.win 5).blk t).view.set := by
  have hN : grid0.N = 10 := N_0
  have hi0 : (i 0).val < 50000 := (i 0).isLt
  have hi1 : (i 1).val < 128 := (i 1).isLt
  have ht : (i 0).val / 5000 < grid0.N := by rw [hN]; omega
  refine ⟨⟨(i 0).val / 5000, ht⟩, flush0_5 _, ?_⟩
  rw [mem_blk]
  obtain ⟨-, -, -, -, -, -, -, -, -, -, e50, e51⟩ := idx_facts ⟨(i 0).val / 5000, ht⟩
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]; omega

/-- The output array after the call: the whole array. -/
theorem final (c : Dev nD) : (dat0 V c).arrAt 5 cfg0.N = whole V c :=
  (dat0 V c).arrAt_eq_of_cover 5 (whole V c) (fun t _ => flushed_eq V c t) cover

end Cert.KernelIdeal.Tiles0

end
-- ==== Proof.Tiles1.lean ====
/-
  Call 1's output array after all ten grid points, as one function of the arrays the call finds on entry.

  The grid has ten points; point `t` reads rows `5000·t … 5000·t + 4999` of the neighbour means and of the node features,
  the whole of both weight matrices and the bias row, and writes the same rows of the output. So what point `t` writes
  back is rows `5000·t …` of ONE array: the layer's linear part of the entry arrays. The ten row
  blocks tile the 50000 rows (row `r` is in block `r / 5000`), so the output array ends holding that array whole.
-/
import proofs.«175392_j62783831933158_1_alg».proof.Proof.Gen.KernelIdeal.Frame
import proofs.«175392_j62783831933158_1_alg».proof.Proof.Body
import proofs.«175392_j62783831933158_1_alg».proof.Proof.Spec
import Idealize.ShloMosaic.Lib.Pipeline.Value

set_option maxRecDepth 16384

noncomputable section

open scoped BigOperators

namespace Cert.KernelIdeal.Tiles1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The bias as the call reads it, one row of 128, seen as a vector. -/
def rowOf (b : S1x128.Idx → EReal) : Cert.Sage.Bias.Idx → EReal := fun i => b (ix2 (0 : Fin 1) (i 0))

/-- The whole output array: the layer's linear part of the arrays found on entry. -/
def whole (c : Dev nD) : Buf (Elt Ideal) ((c : Thread nD τ).loc main_v40) :=
  Cert.Sage.lin (V c main_v38) (V c main_v26) (V c main_arg5) (rowOf (V c main_v39)) (V c main_arg7)

/-- The printed index maps over the grid: the three row-tiled windows are at block row `t`, column block 0; the weights and
    the bias are always at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One point, over plain arrays: if a tile's two row blocks are rows `5000·n …` of two arrays, the body's value at an entry of
    the tile is the layer's value at the matching entry of the arrays. -/
theorem point (Am Ax : Cert.Sage.Nodes.Idx → EReal) (Wl Wr : Vec Ideal S128x128 .f32) (b : Vec Ideal S1x128 .f32)
    (xm xx : Vec Ideal S5000x128 .f32) (n : Nat)
    (hm : ∀ (p : Fin 5000) (k : Fin 128) (r : Fin 50000), r.val = n * 5000 + p.val → xm (ix2 p k) = Am (ix2 r k))
    (hx : ∀ (p : Fin 5000) (k : Fin 128) (r : Fin 50000), r.val = n * 5000 + p.val → xx (ix2 p k) = Ax (ix2 r k))
    (y : S5000x128.Idx) (i : Cert.Sage.Nodes.Idx) (hi0 : (i 0).val = n * 5000 + (y 0).val) (hi1 : (i 1).val = (y 1).val) :
    k1_pay1 (F := Ideal) xm xx Wl Wr b y = (Cert.Sage.lin Am Ax Wl (rowOf b) Wr) i := by
  obtain ⟨p, j, rfl⟩ : ∃ (p : Fin 5000) (j : Fin 128), y = ix2 p j := ⟨y 0, y 1, eq_ix2 y⟩
  obtain ⟨r, j', rfl⟩ : ∃ (r : Fin 50000) (j' : Fin 128), i = ix2 r j' := ⟨i 0, i 1, eq_ix2 i⟩
  have hj : j' = j := Fin.ext hi1
  subst hj
  rw [Cert.KernelIdeal.Body.pay1_at]
  unfold Cert.KernelIdeal.Body.tileLin Cert.Sage.lin Cert.Sage.linAt rowOf
  have e1 : ∀ k : Fin 128, xm (ix2 p k) = Am (ix2 r k) := fun k => hm p k r hi0
  have e2 : ∀ k : Fin 128, xx (ix2 p k) = Ax (ix2 r k) := fun k => hx p k r hi0
  simp only [e1, e2]

/-- A row-tiled input window's block at point `t`, at row `p`, is the entry array at row `5000·t + p`. -/
theorem iblk_rows (c : Dev nD) (t : Fin cfg1.N) :
    (∀ (p : Fin 5000) (k : Fin 128) (r : Fin 50000), r.val = t.val * 5000 + p.val →
        (iblk1 V c 0 t : Vec Ideal S5000x128 .f32) (ix2 p k) = (V c main_v38 : Cert.Sage.Nodes.Idx → EReal) (ix2 r k))
    ∧ (∀ (p : Fin 5000) (k : Fin 128) (r : Fin 50000), r.val = t.val * 5000 + p.val →
        (iblk1 V c 1 t : Vec Ideal S5000x128 .f32) (ix2 p k) = (V c main_v26 : Cert.Sage.Nodes.Idx → EReal) (ix2 r k)) := by
  obtain ⟨e00, e01, e10, e11, -⟩ := idx_facts t
  constructor
  · intro p k r hr
    show V c main_v38 (((cfg1.win 0).blk t).view.emb (ix2 p k)) = V c main_v38 (ix2 r k)
    refine congrArg (V c main_v38) (funext fun a => Fin.ext ?_)
    match a with
    | ⟨0, _⟩ => show win1_0.index t (0 : Fin 2) * 5000 + 1 * p.val = r.val; rw [e00, hr]; omega
    | ⟨1, _⟩ => show win1_0.index t (1 : Fin 2) * 128 + 1 * k.val = k.val; rw [e01]; omega
  · intro p k r hr
    show V c main_v26 (((cfg1.win 1).blk t).view.emb (ix2 p k)) = V c main_v26 (ix2 r k)
    refine congrArg (V c main_v26) (funext fun a => Fin.ext ?_)
    match a with
    | ⟨0, _⟩ => show win1_1.index t (0 : Fin 2) * 5000 + 1 * p.val = r.val; rw [e10, hr]; omega
    | ⟨1, _⟩ => show win1_1.index t (1 : Fin 2) * 128 + 1 * k.val = k.val; rw [e11]; omega

/-- The weights' and the bias's blocks are the entry arrays themselves: their one block is the whole array. -/
theorem iblk_whole (c : Dev nD) (t : Fin cfg1.N) :
    (iblk1 V c 2 t : Vec Ideal S128x128 .f32) = V c main_arg5
    ∧ (iblk1 V c 3 t : Vec Ideal S1x128 .f32) = V c main_v39
    ∧ (iblk1 V c 4 t : Vec Ideal S128x128 .f32) = V c main_arg7 := by
  obtain ⟨-, -, -, -, e20, e21, e30, e31, e40, e41, -⟩ := idx_facts t
  refine ⟨funext fun y => ?_, funext fun y => ?_, funext fun y => ?_⟩
  · show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; rw [e20]; omega
    | ⟨1, _⟩ => show win1_2.index t (1 : Fin 2) * 128 + 1 * (y 1).val = (y 1).val; rw [e21]; omega
  · show V c main_v39 (((cfg1.win 3).blk t).view.emb y) = V c main_v39 y
    refine congrArg (V c main_v39) (funext fun a => Fin.ext ?_)
    match a with
    | ⟨0, _⟩ => show win1_3.index t (0 : Fin 2) * 1 + 1 * (y 0).val = (y 0).val; rw [e30]; omega
    | ⟨1, _⟩ => show win1_3.index t (1 : Fin 2) * 128 + 1 * (y 1).val = (y 1).val; rw [e31]; omega
  · show V c main_arg7 (((cfg1.win 4).blk t).view.emb y) = V c main_arg7 y
    refine congrArg (V c main_arg7) (funext fun a => Fin.ext ?_)
    match a with
    | ⟨0, _⟩ => show win1_4.index t (0 : Fin 2) * 128 + 1 * (y 0).val = (y 0).val; rw [e40]; omega
    | ⟨1, _⟩ => show win1_4.index t (1 : Fin 2) * 128 + 1 * (y 1).val = (y 1).val; rw [e41]; omega

/-- What point `t` writes back is block `t` of the whole output array. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨w2, w3, w4⟩ := iblk_whole V c t
  obtain ⟨hm, hx⟩ := iblk_rows V c t
  obtain ⟨-, -, -, -, -, -, -, -, -, -, e50, e51⟩ := idx_facts t
  rw [w2, w3, w4]
  funext y
  show k1_pay1 (F := Ideal) (iblk1 V c 0 t) (iblk1 V c 1 t) (V c main_arg5) (V c main_arg7) (V c main_v39) y
    = whole V c (((cfg1.win 5).blk t).view.emb y)
  refine point (V c main_v38) (V c main_v26) (V c main_arg5) (V c main_arg7) (V c main_v39) (iblk1 V c 0 t) (iblk1 V c 1 t) t.val hm hx y _ ?_ ?_
  · show win1_5.index t (0 : Fin 2) * 5000 + 1 * (y 0).val = t.val * 5000 + (y 0).val; rw [e50]; omega
  · show win1_5.index t (1 : Fin 2) * 128 + 1 * (y 1).val = (y 1).val; rw [e51]; omega

/-- An index of the output array is in point `t`'s block iff each coordinate is in the block's range. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- Every entry of the output array is in some point's block: row `r` is in block `r / 5000`. -/
theorem cover (i : S50000x128.Idx) :
    ∃ t : Fin cfg1.N, (cfg1.win 5).flush t = true ∧ i ∈ ((cfg1.win 5).blk t).view.set := by
  have hN : grid1.N = 10 := N_1
  have hi0 : (i 0).val < 50000 := (i 0).isLt
  have hi1 : (i 1).val < 128 := (i 1).isLt
  have ht : (i 0).val / 5000 < grid1.N := by rw [hN]; omega
  refine ⟨⟨(i 0).val / 5000, ht⟩, flush1_5 _, ?_⟩
  rw [mem_blk]
  obtain ⟨-, -, -, -, -, -, -, -, -, -, e50, e51⟩ := idx_facts ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e51]; omega

/-- The output array after the call: the whole array. -/
theorem final (c : Dev nD) : (dat1 V c).arrAt 5 cfg1.N = whole V c :=
  (dat1 V c).arrAt_eq_of_cover 5 (whole V c) (fun t _ => flushed_eq V c t) cover

end Cert.KernelIdeal.Tiles1

end
-- ==== Proof.KernelNet.lean ====
/-
  The kernel program's result array is the two-layer network of its arguments.

  The second call's output is the layer's linear part of what it finds on entry: the host's neighbour means of the first
  call's output, that output itself, and the second layer's weights and bias. The first call's output is the positive part of
  the same, of the features and the first layer's weights and bias. The host's neighbour means are the neighbour sum times
  the reciprocal of the clamped degree, broadcast along each row; entry by entry that product is the quotient by the clamped
  degree (multiplying by `1 / d` is dividing by `d` when `d ≥ 1`), so they are the neighbour means of the specification. The
  bias, seen as one row and read at its column, is the bias argument.
-/
import proofs.«175392_j62783831933158_1_alg».proof.Proof.Host
import proofs.«175392_j62783831933158_1_alg».proof.Proof.Tiles0
import proofs.«175392_j62783831933158_1_alg».proof.Proof.Tiles1
import proofs.«175392_j62783831933158_1_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KernelNet

open Cert.KernelIdeal Cert.KernelIdeal.Gen Cert.KernelIdeal.HostSide
open Idealize.ShloMosaic Idealize.ShloMosaic.TcCoe Idealize.SL.Sem Idealize.ShloMosaic.ValueIdx

/-! ## The host's neighbour means are the specification's -/

/-- A column broadcast along rows reads, at an entry, the column at the entry's row. -/
theorem rows_apply (v : (⟨S50000x1, .f32⟩ : BufTy).Contents (Elt Ideal)) (p : Fin 50000) (j : Fin 128) :
    broadcastInDim S50000x128 ![0, 1] bcast_S50000x1_S50000x128_0_1 v (ix2 p j) = v (ix2 p (0 : Fin 1)) :=
  broadcastInDim_apply _ bcast_S50000x1_S50000x128_0_1 v (ix2 p j) (ix2 p (0 : Fin 1)) (fun a => match a with
    | ⟨0, _⟩ => by show p.val = if (50000 : Nat) = 1 then 0 else p.val; rw [if_neg (by decide)]
    | ⟨1, _⟩ => by show 0 = if (1 : Nat) = 1 then 0 else j.val; rw [if_pos rfl])

/-- A vector made a column reads, at `(p, 0)`, the vector at `p`. -/
theorem col_apply (v : (⟨S50000, .f32⟩ : BufTy).Contents (Elt Ideal)) (p : Fin 50000) (u : Fin 1) :
    broadcastInDim S50000x1 ![0] bcast_S50000_S50000x1_0 v (ix2 p u) = v (ix1 p) :=
  broadcastInDim_apply _ bcast_S50000_S50000x1_0 v (ix2 p u) (ix1 p) (fun a => match a with
    | ⟨0, _⟩ => by show p.val = if (50000 : Nat) = 1 then 0 else p.val; rw [if_neg (by decide)])

/-- The splat of the pattern of one reads one everywhere. -/
theorem ones_apply (j : S50000.Idx) :
    broadcastInDim S50000 ![] bcast_S_S50000 (constant (F := Ideal) S_ .f32 0x3F800000#32) j = 1 := by
  rw [broadcastInDim_apply _ bcast_S_S50000 (constant (F := Ideal) S_ .f32 0x3F800000#32) j ix0 (fun a => a.elim0)]
  exact Cert.Sage.one_bits

/-- The clamped degree is a maximum with one. -/
theorem deg_apply (e : (⟨S2x800000, .i32⟩ : BufTy).Contents (Elt Ideal)) (j : S50000.Idx) :
    ∃ cnt : EReal, deg (F := Ideal) e j = max cnt 1 :=
  ⟨_, by unfold deg; rw [maximumf_apply, ones_apply]⟩

/-- A neighbour sum times the row-broadcast reciprocals of degrees that are maxima with one is the quotient by the degrees,
    entry by entry: `s (p, j) · (1 / d p) = s (p, j) / d p`. -/
theorem recip_rows (s : (⟨S50000x128, .f32⟩ : BufTy).Contents (Elt Ideal)) (d : (⟨S50000, .f32⟩ : BufTy).Contents (Elt Ideal))
    (hd : ∀ j : S50000.Idx, ∃ cnt : EReal, d j = max cnt 1) :
    mulf (F := Ideal) s (broadcastInDim S50000x128 ![0, 1] bcast_S50000x1_S50000x128_0_1
        (broadcastInDim S50000x1 ![0] bcast_S50000_S50000x1_0
          (Host.divf (F := Ideal) (broadcastInDim S50000 ![] bcast_S_S50000 (constant (F := Ideal) S_ .f32 0x3F800000#32)) d)))
      = Cert.Sage.meanOf s d := by
  funext i
  obtain ⟨p, j, rfl⟩ : ∃ (p : Fin 50000) (j : Fin 128), i = ix2 p j := ⟨i 0, i 1, eq_ix2 i⟩
  obtain ⟨cnt, hc⟩ := hd (ix1 p)
  rw [mulf_apply, rows_apply, col_apply]
  show s (ix2 p j) * Ideal.div (broadcastInDim S50000 ![] bcast_S_S50000 (constant (F := Ideal) S_ .f32 0x3F800000#32) (ix1 p)) (d (ix1 p))
    = Ideal.div (s (ix2 p j)) (d (ix1 p))
  rw [ones_apply, hc]
  exact Cert.Sage.mul_recip _ _

/-- The host's neighbour means are the neighbour sum over the clamped degree. -/
theorem meanK_eq (e : (⟨S2x800000, .i32⟩ : BufTy).Contents (Elt Ideal)) (h : (⟨S50000x128, .f32⟩ : BufTy).Contents (Elt Ideal)) :
    meanK (F := Ideal) e h = Cert.Sage.meanOf (agg e h) (deg e) :=
  recip_rows (agg e h) (deg e) (deg_apply e)

/-- The bias argument seen as one row and read at its column is the bias. -/
theorem bias0_eq (b : (⟨S128, .f32⟩ : BufTy).Contents (Elt Ideal)) :
    Cert.KernelIdeal.Tiles0.rowOf (shapeCast S1x128 b shapeCasts_S128_S1x128) = b := by
  funext i
  obtain ⟨j, rfl⟩ : ∃ j : Fin 128, i = ix1 j := ⟨i 0, eq_ix1 i⟩
  exact shapeCast_a_1a_apply b shapeCasts_S128_S1x128 (0 : Fin 1) j
theorem bias1_eq (b : (⟨S128, .f32⟩ : BufTy).Contents (Elt Ideal)) :
    Cert.KernelIdeal.Tiles1.rowOf (shapeCast S1x128 b shapeCasts_S128_S1x128) = b := by
  funext i
  obtain ⟨j, rfl⟩ : ∃ j : Fin 128, i = ix1 j := ⟨i 0, eq_ix1 i⟩
  exact shapeCast_a_1a_apply b shapeCasts_S128_S1x128 (0 : Fin 1) j

/-! ## The result array -/

variable (m : (ℓ : Loc nD τ sig) → Buf (Elt Ideal) ℓ) (ρ : Dev nD → PrngReg)

/-- The first call's output array: the positive part of the first layer. -/
theorem first_call (c : Dev nD) :
    W2 m ρ c (Proc.devRef .tc main_v26)
      = Cert.Sage.relu (Cert.Sage.layer (agg (m ((c : Thread nD τ).loc main_arg1))) (deg (m ((c : Thread nD τ).loc main_arg1)))
          (m ((c : Thread nD τ).loc main_arg0)) (m ((c : Thread nD τ).loc main_arg2)) (m ((c : Thread nD τ).loc main_arg3))
          (m ((c : Thread nD τ).loc main_arg4))) := by
  refine (W2_arr m ρ c 5).trans ?_
  rw [Cert.KernelIdeal.Tiles0.final (V1 m ρ) c]
  unfold Cert.KernelIdeal.Tiles0.whole
  rw [V1_mean, V1_bias, V1_x, V1_Wl, V1_Wr, meanK_eq, bias0_eq]
  rfl

/-- The result array: the second layer of the first call's output. -/
theorem result (c : Dev nD) :
    W4 m ρ c (Proc.devRef .tc main_v40)
      = Cert.Sage.net (agg (m ((c : Thread nD τ).loc main_arg1))) (deg (m ((c : Thread nD τ).loc main_arg1)))
          (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  refine (W4_arr m ρ c 5).trans ?_
  rw [Cert.KernelIdeal.Tiles1.final (V3 m ρ) c]
  unfold Cert.KernelIdeal.Tiles1.whole
  rw [V3_mean, V3_bias, V3_h, V3_Wl, V3_Wr, meanK_eq, bias1_eq, first_call]
  rfl

end Cert.KernelIdeal.KernelNet

end
-- ==== Proof.RefNet.lean ====
/-
  The reference program, stage by stage, is the two-layer network.

  Its stages are read one at a time. The neighbour sum (gather the source rows, sum them into the destination rows) and the
  clamped degree are kept as the host's own operations of the edge list: they are computed twice by the reference, by the same
  operations, and the two copies are one term. Around them: a quotient by the degree broadcast along rows is the neighbour
  mean; a product with a weight matrix, read at an entry, is the sum over the shared coordinate; the bias broadcast along
  columns is the bias at the column; the maximum with the zero splat is the positive part. Composed, the result is the
  second layer applied to the positive part of the first.
-/
import proofs.«175392_j62783831933158_1_alg».proof.Proof.Gen.ReferenceIdeal.Read
import proofs.«175392_j62783831933158_1_alg».proof.Proof.Spec

set_option maxRecDepth 16384

noncomputable section

open scoped BigOperators

namespace Cert.ReferenceIdeal.RefNet

open Cert.ReferenceIdeal Cert.ReferenceIdeal.Gen Cert.ReferenceIdeal.Read Idealize.ShloMosaic Idealize.ShloMosaic.ValueIdx

/-! ## The neighbour sum and the degree, shared by the two layers -/

section Shared
variable {F : FTy → Type} [FloatOps F]

/-- The neighbour sum of a feature array, by the reference's own operations of the edge list. -/
def aggR (e : (⟨S2x800000, .i32⟩ : BufTy).Contents (Elt F)) (h : (⟨S50000x128, .f32⟩ : BufTy).Contents (Elt F)) : (⟨S50000x128, .f32⟩ : BufTy).Contents (Elt F) :=
  Host.scatterAdd (F := F) scatter_S50000x128_S800000x1_S800000x128_1_0_0_1 (val_main_v11 (F := F)) (val_main_v12 (F := F) e)
    (Host.gather gather_S50000x128_S800000x1_S800000x128_1_0_n_n_0_1_1128 h (val_main_v9 (F := F) e))

/-- The first layer's neighbour sum is that of the features. -/
theorem sum1_eq (x0 : (⟨S50000x128, .f32⟩ : BufTy).Contents (Elt F)) (x1 : (⟨S2x800000, .i32⟩ : BufTy).Contents (Elt F)) :
    val_main_v13 (F := F) x0 x1 = aggR x1 x0 := rfl

/-- The second layer's neighbour sum is that of the first layer's output: the same operations on the same edge list. -/
theorem sum2_eq (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) :
    val_main_v39 (F := F) x0 x1 x2 x3 x4 = aggR x1 (val_main_v29 (F := F) x0 x1 x2 x3 x4) := rfl

/-- The second layer's clamped degree is the first's. -/
theorem deg2_eq (x1 : (⟨S2x800000, .i32⟩ : BufTy).Contents (Elt F)) : val_main_v45 (F := F) x1 = val_main_v19 (F := F) x1 := rfl

end Shared

/-! ## The stages at an entry -/

/-- The first layer's quotient is the neighbour mean. -/
theorem mean1_eq (x0 : (⟨S50000x128, .f32⟩ : BufTy).Contents (Elt Ideal)) (x1 : (⟨S2x800000, .i32⟩ : BufTy).Contents (Elt Ideal)) :
    val_main_v22 (F := Ideal) x0 x1 = Cert.Sage.meanOf (aggR x1 x0) (val_main_v19 (F := Ideal) x1) := by
  funext i
  have ei : idx_main_v20 (idx_main_v21 i) = ix1 (i 0) := funext fun a => Fin.ext (by match a with | ⟨0, _⟩ => rfl)
  rw [val_main_v22_apply, val_main_v21_apply, val_main_v20_apply, ei, sum1_eq]
  rfl

/-- The second layer's quotient is the neighbour mean of the first layer's output. -/
theorem mean2_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v48 (F := Ideal) x0 x1 x2 x3 x4
      = Cert.Sage.meanOf (aggR x1 (val_main_v29 (F := Ideal) x0 x1 x2 x3 x4)) (val_main_v19 (F := Ideal) x1) := by
  funext i
  have ei : idx_main_v46 (idx_main_v47 i) = ix1 (i 0) := funext fun a => Fin.ext (by match a with | ⟨0, _⟩ => rfl)
  rw [val_main_v48_apply, val_main_v47_apply, val_main_v46_apply, ei, sum2_eq, deg2_eq]
  rfl

/-- The first layer before its positive part: the linear part of the quotient and of the features. -/
theorem lin1_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v28 (F := Ideal) x0 x1 x2 x3 x4 = Cert.Sage.lin (val_main_v22 (F := Ideal) x0 x1) x0 x2 x3 x4 := by
  funext i
  obtain ⟨p, j, rfl⟩ : ∃ (p : Fin 50000) (j : Fin 128), i = ix2 p j := ⟨i 0, i 1, eq_ix2 i⟩
  have el : ∀ k : Fin 128, lidx_main_v23 (ix2 p j) k = ix2 p k :=
    fun k => funext fun a => Fin.ext (by match a with | ⟨0, _⟩ => rfl | ⟨1, _⟩ => rfl)
  have er : ∀ k : Fin 128, ridx_main_v23 (ix2 p j) k = ix2 k j :=
    fun k => funext fun a => Fin.ext (by match a with | ⟨0, _⟩ => rfl | ⟨1, _⟩ => rfl)
  have el' : ∀ k : Fin 128, lidx_main_v27 (ix2 p j) k = ix2 p k :=
    fun k => funext fun a => Fin.ext (by match a with | ⟨0, _⟩ => rfl | ⟨1, _⟩ => rfl)
  have er' : ∀ k : Fin 128, ridx_main_v27 (ix2 p j) k = ix2 k j :=
    fun k => funext fun a => Fin.ext (by match a with | ⟨0, _⟩ => rfl | ⟨1, _⟩ => rfl)
  have eb : idx_main_v24 (idx_main_v25 (ix2 p j)) = ix1 j := funext fun a => Fin.ext (by match a with | ⟨0, _⟩ => rfl)
  rw [val_main_v28_apply, val_main_v26_apply, val_main_v23_apply, val_main_v27_apply, val_main_v25_apply, val_main_v24_apply]
  simp only [el, er, el', er', eb]
  rfl

/-- The positive part. -/
theorem relu_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v29 (F := Ideal) x0 x1 x2 x3 x4 = Cert.Sage.relu (val_main_v28 (F := Ideal) x0 x1 x2 x3 x4) := by
  funext i
  rw [val_main_v29_apply, val_main_call0_v0_apply, val_main_call0_cst_apply, Ideal.maximumf_def, Ideal.ofBits_def,
    Ideal.ofBits_zero_f32]
  rfl

/-- The second layer: the linear part of its quotient and of the first layer's output. -/
theorem lin2_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v54 (F := Ideal) x0 x1 x2 x3 x4 x5 x6 x7
      = Cert.Sage.lin (val_main_v48 (F := Ideal) x0 x1 x2 x3 x4) (val_main_v29 (F := Ideal) x0 x1 x2 x3 x4) x5 x6 x7 := by
  funext i
  obtain ⟨p, j, rfl⟩ : ∃ (p : Fin 50000) (j : Fin 128), i = ix2 p j := ⟨i 0, i 1, eq_ix2 i⟩
  have el : ∀ k : Fin 128, lidx_main_v49 (ix2 p j) k = ix2 p k :=
    fun k => funext fun a => Fin.ext (by match a with | ⟨0, _⟩ => rfl | ⟨1, _⟩ => rfl)
  have er : ∀ k : Fin 128, ridx_main_v49 (ix2 p j) k = ix2 k j :=
    fun k => funext fun a => Fin.ext (by match a with | ⟨0, _⟩ => rfl | ⟨1, _⟩ => rfl)
  have el' : ∀ k : Fin 128, lidx_main_v53 (ix2 p j) k = ix2 p k :=
    fun k => funext fun a => Fin.ext (by match a with | ⟨0, _⟩ => rfl | ⟨1, _⟩ => rfl)
  have er' : ∀ k : Fin 128, ridx_main_v53 (ix2 p j) k = ix2 k j :=
    fun k => funext fun a => Fin.ext (by match a with | ⟨0, _⟩ => rfl | ⟨1, _⟩ => rfl)
  have eb : idx_main_v50 (idx_main_v51 (ix2 p j)) = ix1 j := funext fun a => Fin.ext (by match a with | ⟨0, _⟩ => rfl)
  rw [val_main_v54_apply, val_main_v52_apply, val_main_v49_apply, val_main_v53_apply, val_main_v51_apply, val_main_v50_apply]
  simp only [el, er, el', er', eb]
  rfl

/-! ## The reference is the network -/

/-- The reference's result, as a function of its arguments, is the two-layer network over its own neighbour sum and degree. -/
theorem ref_net (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v54 (F := Ideal) x0 x1 x2 x3 x4 x5 x6 x7
      = Cert.Sage.net (aggR x1) (val_main_v19 (F := Ideal) x1) x0 x2 x3 x4 x5 x6 x7 := by
  rw [lin2_eq, mean2_eq, relu_eq, lin1_eq, mean1_eq]
  rfl

end Cert.ReferenceIdeal.RefNet

end
-- ==== Proof.lean ====
/-
  A two-layer graph convolution with mean aggregation, tiled over node rows, against its plain array form.

  Both programs compute, for 50000 nodes with 128 features each and an edge list, the network

      h   = max (mean(x) · W1l + b1 + x · W1r) 0
      out = mean(h) · W2l + b2 + h · W2r,

  where `mean(y)` sums the source rows of `y` into their destination rows and divides each row by its node's number of
  incoming edges, clamped at one. The gathering and summing are the same host operations of the edge list in both programs.
  They differ in two ways. The kernel program multiplies the summed rows by the RECIPROCAL of the clamped degree where the
  reference divides by it: on the extended reals these agree for every numerator, because the clamped degree is at least one,
  hence not zero, and the quotient off zero is the product with the inverse. And the kernel program computes each layer's
  linear part in ten tiles of 5000 rows, narrowing its matrix operands to a short float format first: at the exact
  instance a change of format is the identity, a tile's product into a zero accumulator is the same sum over the shared
  coordinate as the whole product's, and the ten row blocks tile the array. No finiteness of the inputs is used.

  The kernel program's result array is read off its run as the network of its arguments (the tiles put back together, the
  host's stages named), the reference's result is read stage by stage as the same network, and the two neighbour sums and
  clamped degrees are one function of the edge list. The idealized kernel program is the printed one read at the exact
  instance: nothing was rewritten.
-/
import proofs.«175392_j62783831933158_1_alg».proof.Defs
import proofs.«175392_j62783831933158_1_alg».proof.Proof.Gen.Kernel
import proofs.«175392_j62783831933158_1_alg».proof.Proof.Gen.Kernel.Skeleton
import proofs.«175392_j62783831933158_1_alg».proof.Proof.Gen.Kernel.Launch
import proofs.«175392_j62783831933158_1_alg».proof.Proof.Gen.Kernel.Points
import proofs.«175392_j62783831933158_1_alg».proof.Proof.Gen.Kernel.Frame
import proofs.«175392_j62783831933158_1_alg».proof.Proof.Gen.KernelIdeal
import proofs.«175392_j62783831933158_1_alg».proof.Proof.Gen.KernelIdeal.Skeleton
import proofs.«175392_j62783831933158_1_alg».proof.Proof.Gen.KernelIdeal.Launch
import proofs.«175392_j62783831933158_1_alg».proof.Proof.Gen.KernelIdeal.Points
import proofs.«175392_j62783831933158_1_alg».proof.Proof.Gen.KernelIdeal.Frame
import proofs.«175392_j62783831933158_1_alg».proof.Proof.Gen.ReferenceIdeal
import proofs.«175392_j62783831933158_1_alg».proof.Proof.Gen.Pre_finite_inputs
import proofs.«175392_j62783831933158_1_alg».proof.Proof.Gen.ReferenceIdeal.Run
import proofs.«175392_j62783831933158_1_alg».proof.Proof.Gen.ReferenceIdeal.Read
import proofs.«175392_j62783831933158_1_alg».proof.Proof.RunK
import proofs.«175392_j62783831933158_1_alg».proof.Proof.KernelNet
import proofs.«175392_j62783831933158_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-! ## The two programs' neighbour sum and clamped degree are one function of the edge list -/

/-- Gathering the source rows and summing them into the destination rows: the same operations in both programs. -/
theorem agg_same (e : (⟨Cert.KernelIdeal.S2x800000, .i32⟩ : BufTy).Contents (Elt Ideal))
    (h : (⟨Cert.KernelIdeal.S50000x128, .f32⟩ : BufTy).Contents (Elt Ideal)) :
    Cert.ReferenceIdeal.RefNet.aggR (F := Ideal) e h = Cert.KernelIdeal.HostSide.agg (F := Ideal) e h := rfl

/-- Counting the incoming edges and clamping at one: the same operations in both programs. -/
theorem deg_same (e : (⟨Cert.KernelIdeal.S2x800000, .i32⟩ : BufTy).Contents (Elt Ideal)) :
    Cert.ReferenceIdeal.Read.val_main_v19 (F := Ideal) e = Cert.KernelIdeal.HostSide.deg (F := Ideal) e := rfl

/-! ## The claims -/

theorem frame_k : Cert.frame_Kernel := fun m ρ _ => Cert.Kernel.Gen.frame m ρ
theorem frame_ki : Cert.frame_KernelIdeal := fun m ρ _ => Cert.KernelIdeal.Gen.frame m ρ
/-- The reference has no call: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the printed kernel program and its exact reading. -/
theorem preserves : Cert.preserves_Kernel_KernelIdeal := trivial

/-- Both programs end with the network of the arguments in their result arrays. -/
theorem algebraic : Cert.algebraic_KernelIdeal_ReferenceIdeal := by
  intro m ρ m' ρ' _ hagree
  refine ⟨fun c => Cert.KernelIdeal.Gen.W4 m ρ c (Proc.devRef .tc Cert.KernelIdeal.main_v40),
    Cert.KernelIdeal.RunK.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  show Cert.ReferenceIdeal.Value.res_main_v54 m' c
    = Cert.KernelIdeal.Gen.W4 m ρ c (Proc.devRef .tc Cert.KernelIdeal.main_v40)
  rw [Cert.ReferenceIdeal.Read.val_main_v54_eq, Cert.ReferenceIdeal.RefNet.ref_net, Cert.KernelIdeal.KernelNet.result,
    a0, a1, a2, a3, a4, a5, a6, a7]
  have hA : Cert.ReferenceIdeal.RefNet.aggR (F := Ideal) (m ((c.tc : Thread Cert.KernelIdeal.nD Cert.KernelIdeal.τ).loc Cert.KernelIdeal.main_arg1))
      = Cert.KernelIdeal.HostSide.agg (F := Ideal) (m ((c.tc : Thread Cert.KernelIdeal.nD Cert.KernelIdeal.τ).loc Cert.KernelIdeal.main_arg1)) :=
    funext fun h => agg_same _ h
  rw [hA, deg_same]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
